-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S5000x64 : Shape := ⟨2, ![5000, 64]⟩
abbrev S850000x64 : Shape := ⟨2, ![850000, 64]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 94
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .f32⟩
  | .hbm, ⟨49, _⟩ => ⟨S64, .f32⟩
  | .hbm, ⟨50, _⟩ => ⟨S1x64, .f32⟩
  | .hbm, ⟨51, _⟩ => ⟨S50000x64, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x64, .f32⟩
  | .hbm, ⟨61, _⟩ => ⟨S850000x1, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S_, .f32⟩
  | .hbm, ⟨71, _⟩ => ⟨S64, .f32⟩
  | .hbm, ⟨72, _⟩ => ⟨S1x64, .f32⟩
  | .hbm, ⟨73, _⟩ => ⟨S50000x64, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x64, .f32⟩
  | .hbm, ⟨83, _⟩ => ⟨S850000x1, .f32⟩
  | .hbm, ⟨84, _⟩ => ⟨S850000x64, .f32⟩
  | .hbm, ⟨85, _⟩ => ⟨S850000x64, .f32⟩
  | .hbm, ⟨86, _⟩ => ⟨S_, .f32⟩
  | .hbm, ⟨87, _⟩ => ⟨S50000x64, .f32⟩
  | .hbm, ⟨88, _⟩ => ⟨S850000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S1x40, .f32⟩
  | .hbm, ⟨93, _⟩ => ⟨S50000x40, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x40, .f32⟩
  | .local _ .vmem, ⟨25, _⟩ => ⟨S1x40, .f32⟩
  | .local _ .vmem, ⟨26, _⟩ => ⟨S5000x40, .f32⟩
  | .local _ .vmem, ⟨27, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S5000x64_S5000x64 : S5000x64.ShapeCasts S5000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x40.size a ≤ S64x40.size a
  hwx4_1 : ∀ i : grid4.Coords, EltTy.bits .f32 = 32 ∨ (Rect.block (s := S64x40) S64x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S50000x40.size a
  hwx4_3 : ∀ i : grid4.Coords, EltTy.bits .f32 = 32 ∨ (Rect.block (s := S50000x40) S5000x40.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v63) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x40 : Shape := ⟨2, ![50000, 40]⟩
abbrev S1x40 : Shape := ⟨2, ![1, 40]⟩

abbrev nBuf : Space → Nat
  | .hbm => 127
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S50000x64, .f32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x64, .f32⟩
  | .hbm, ⟨58, _⟩ => ⟨S850000x1, .f32⟩
  | .hbm, ⟨59, _⟩ => ⟨S850000x64, .f32⟩
  | .hbm, ⟨60, _⟩ => ⟨S850000x64, .f32⟩
  | .hbm, ⟨61, _⟩ => ⟨S_, .f32⟩
  | .hbm, ⟨62, _⟩ => ⟨S50000x64, .f32⟩
  | .hbm, ⟨63, _⟩ => ⟨S850000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | .hbm, ⟨122, _⟩ => ⟨S50000x64, .f32⟩
  | .hbm, ⟨123, _⟩ => ⟨S50000x40, .f32⟩
  | .hbm, ⟨124, _⟩ => ⟨S1x40, .f32⟩
  | .hbm, ⟨125, _⟩ => ⟨S50000x40, .f32⟩
  | .hbm, ⟨126, _⟩ => ⟨S50000x40, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x40_S50000x40_1_0_0_1_n_n_wf : DotDims.WF S50000x64 S64x40 S50000x40 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KernelRun.lean ====
/-
  The whole program's run with its two results named.

  The program is five row-tiled stages among stretches of host operations.  Its frame certificate follows
  the buffers' contents through the twelve segments — a fold `W0, …, W12` from the launch memory — and ends
  by reading every buffer of the final state at `W12`; it keeps only the arguments.  Here the same launch
  over the same segments is read once more at the two result buffers as well: after every weakly fair
  execution the classifier's output and the second hidden layer are what the fold holds for them.
-/
import proofs.«105149_j38757784879388_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two results at the fold's final contents and
    the arguments as launched. -/
theorem run : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_v65) = W12 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       h c _ (mem_uc main_v65 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Spec.lean ====
/-
  The two dense stages of a graph-convolution network, as functions of whole arrays over the extended reals.

  `linear M K N x w b` is the affine map of a dense layer: entry `(p, q)` is `∑ k < K, x (p, k) · w (k, q)`
  plus the bias row's entry `q` (the bias is kept as a `[1, N]` array, the form in which a row-tiled
  computation receives it).  `biasTanh M N a b` adds a bias row to every row of `a` and applies the
  hyperbolic tangent entry by entry.  Nothing here depends on how the rows are tiled: both are stated
  once for the whole array, and a tile of rows is the restriction of the same function.
-/
import Idealize.ShloMosaic.PureOps.Ideal
import Idealize.ShloMosaic.Lib.ValueIdx

noncomputable section

namespace Cert.Gcn

open Idealize.ShloMosaic Idealize.ShloMosaic.ValueIdx

/-- A dense layer: `x · w` plus the bias row on every row. -/
def linear (M K N : Nat) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (⟨(i 0).val, (i 0).isLt⟩ : Fin M) k) * w (ix2 k (⟨(i 1).val, (i 1).isLt⟩ : Fin N)))
    + b (ix2 (0 : Fin 1) (⟨(i 1).val, (i 1).isLt⟩ : Fin N))

/-- The dense layer at entry `(p, q)`. -/
theorem linear_apply (M K N : Nat) (x : (⟨2, ![M, K]⟩ : Shape).Idx → EReal) (w : (⟨2, ![K, N]⟩ : Shape).Idx → EReal)
    (b : (⟨2, ![1, N]⟩ : Shape).Idx → EReal) (p : Fin M) (q : Fin N) :
    linear M K N x w b (ix2 p q) = (∑ k : Fin K, x (ix2 p k) * w (ix2 k q)) + b (ix2 (0 : Fin 1) q) := rfl

/-- The bias row added to every row, then `tanh` entry by entry. -/
def biasTanh (M N : Nat) (a : (⟨2, ![M, N]⟩ : Shape).Idx → EReal) (b : (⟨2, ![1, N]⟩ : Shape).Idx → EReal) :
    (⟨2, ![M, N]⟩ : Shape).Idx → EReal :=
  fun i => Ideal.tanh (a i + b (ix2 (0 : Fin 1) (⟨(i 1).val, (i 1).isLt⟩ : Fin N)))

/-- The activation at entry `(p, q)`. -/
theorem biasTanh_apply (M N : Nat) (a : (⟨2, ![M, N]⟩ : Shape).Idx → EReal) (b : (⟨2, ![1, N]⟩ : Shape).Idx → EReal)
    (p : Fin M) (q : Fin N) : biasTanh M N a b (ix2 p q) = Ideal.tanh (a (ix2 p q) + b (ix2 (0 : Fin 1) q)) := rfl

end Cert.Gcn

end
-- ==== Proof.RefLayers.lean ====
/-
  The reference's dense stages, read entry by entry.

  The reference computes a dense layer as a host `dot_general` (for the classifier followed by the addition
  of the bias, broadcast from `[N]` through `[1, N]` to every row), and an activation as `tanh` of the sum
  of an array with a bias broadcast the same way.  At the extended reals the `dot_general` of a plain
  product is the sum over the contraction index of the products, so each of these is the whole-array
  function `Cert.Gcn.linear` or `Cert.Gcn.biasTanh` of its operands, for ANY bias row that agrees with the
  bias entry by entry — and, where the layer has no bias, for any row of zeros, since `a + 0 = a` holds
  for every extended real `a`.
-/
import proofs.«105149_j38757784879388_1_alg».proof.Proof.RefRead
import proofs.«105149_j38757784879388_1_alg».proof.Proof.LibPlainDot
import proofs.«105149_j38757784879388_1_alg».proof.Proof.Spec

noncomputable section

namespace Cert.ReferenceIdeal.Layers

open Cert.ReferenceIdeal Cert.ReferenceIdeal.Read Idealize.ShloMosaic Idealize.ShloMosaic.ValueIdx

/-- `[50000, 64] · [64, 64]`: the left operand's columns against the right operand's rows, no batch axis. -/
theorem plain64 : Cert.PlainDot.IsPlain dot_S50000x64_S64x64_S50000x64_1_0_0_1_n_n := ⟨rfl, rfl, rfl, rfl, rfl, rfl⟩

/-- `[50000, 64] · [64, 40]`, likewise. -/
theorem plain40 : Cert.PlainDot.IsPlain dot_S50000x64_S64x40_S50000x40_1_0_0_1_n_n := ⟨rfl, rfl, rfl, rfl, rfl, rfl⟩

/-- A hidden layer's product: with a bias row of zeros the dense layer is the bare matrix product. -/
theorem hidden_product (x : FVec Ideal S50000x64 .f32) (w : FVec Ideal S64x64 .f32) (z : FVec Ideal S1x64 .f32)
    (hz : ∀ q : Fin 64, z (ix2 (0 : Fin 1) q) = 0) :
    Cert.Gcn.linear 50000 64 64 x w z = val_main_v7 (F := Ideal) x w := by
  funext i
  obtain ⟨p, q, rfl⟩ : ∃ (p : Fin 50000) (q : Fin 64), i = ix2 p q := ⟨i 0, i 1, eq_ix2 i⟩
  rw [Cert.Gcn.linear_apply, hz q, add_zero]
  unfold val_main_v7
  exact (Cert.PlainDot.dotGeneral_apply _ plain64 none x w p q).symm

/-- The bias of a hidden layer, broadcast from `[64]` to every row, read at entry `(p, q)`. -/
theorem hidden_bias_apply (b : FVec Ideal S64 .f32) (p : Fin 50000) (q : Fin 64) :
    val_main_v45 (F := Ideal) b (ix2 p q) = b (ix1 q) := by
  rw [val_main_v45_apply, val_main_v44_apply]
  exact congrArg b (funext fun a => by match a with | ⟨0, _⟩ => rfl)

/-- A hidden layer's activation: `tanh` of the aggregate plus the bias, for any bias row that agrees with the bias. -/
theorem hidden_activation (a : FVec Ideal S50000x64 .f32) (b : FVec Ideal S64 .f32) (row : FVec Ideal S1x64 .f32)
    (hrow : ∀ q : Fin 64, row (ix2 (0 : Fin 1) q) = b (ix1 q)) :
    Cert.Gcn.biasTanh 50000 64 a row = Host.tanh (addf a (val_main_v45 (F := Ideal) b)) := by
  funext i
  obtain ⟨p, q, rfl⟩ : ∃ (p : Fin 50000) (q : Fin 64), i = ix2 p q := ⟨i 0, i 1, eq_ix2 i⟩
  rw [Cert.Gcn.biasTanh_apply, hrow q]
  show _ = FloatOps.hostUnary .tanh (a (ix2 p q) + val_main_v45 (F := Ideal) b (ix2 p q))
  rw [hidden_bias_apply, Ideal.hostUnary_tanh_def]

/-- The classifier's bias, broadcast from `[40]` to every row, read at entry `(p, q)`. -/
theorem classifier_bias_apply (b : FVec Ideal S40 .f32) (p : Fin 50000) (q : Fin 40) :
    val_main_v91 (F := Ideal) b (ix2 p q) = b (ix1 q) := by
  rw [val_main_v91_apply, val_main_v90_apply]
  exact congrArg b (funext fun a => by match a with | ⟨0, _⟩ => rfl)

/-- The classifier: the product plus the bias on every row, for any bias row that agrees with the bias. -/
theorem classifier (x : FVec Ideal S50000x64 .f32) (w : FVec Ideal S64x40 .f32) (b : FVec Ideal S40 .f32)
    (row : FVec Ideal S1x40 .f32) (hrow : ∀ q : Fin 40, row (ix2 (0 : Fin 1) q) = b (ix1 q)) :
    Cert.Gcn.linear 50000 64 40 x w row
      = addf (Host.dotGeneral dot_S50000x64_S64x40_S50000x40_1_0_0_1_n_n none x w) (val_main_v91 (F := Ideal) b) := by
  funext i
  obtain ⟨p, q, rfl⟩ : ∃ (p : Fin 50000) (q : Fin 40), i = ix2 p q := ⟨i 0, i 1, eq_ix2 i⟩
  rw [Cert.Gcn.linear_apply, hrow q]
  show _ = Host.dotGeneral dot_S50000x64_S64x40_S50000x40_1_0_0_1_n_n none x w (ix2 p q) + val_main_v91 (F := Ideal) b (ix2 p q)
  rw [classifier_bias_apply, Cert.PlainDot.dotGeneral_apply _ plain40 none x w p q]

end Cert.ReferenceIdeal.Layers

end
-- ==== Proof.KernelBodies.lean ====
/-
  What one tile of rows computes, entry by entry, at the extended reals.

  A linear tile loads a block `x` of 5000 rows, the whole weight matrix `w` and the bias row `b`, rounds
  `x` and `w` to bf16 (the identity on exact values), multiplies them into a zero accumulator and adds the
  bias row to every row: entry `(p, q)` is `∑ k < 64, x (p, k) · w (k, q) + b (0, q)`.  An activation tile
  loads a block `a` and the bias row and stores `tanh (a (p, q) + b (0, q))`.  The three linear tiles differ
  only in a shape cast that changes nothing and in the classifier's 40 columns.
-/
import proofs.«105149_j38757784879388_1_alg».proof.Proof.Gen.KernelIdeal.Skeleton
import proofs.«105149_j38757784879388_1_alg».proof.Proof.LibPlainDot
import proofs.«105149_j38757784879388_1_alg».proof.Proof.Spec
import Idealize.ShloMosaic.Lib.Pipeline.Value
import Idealize.ShloMosaic.Lib.ValueLayout

noncomputable section

namespace Cert.KernelIdeal.Tiles

open Cert.KernelIdeal Cert.KernelIdeal.Gen Idealize.ShloMosaic Idealize.ShloMosaic.ValueIdx

/-- `[5000, 64] · [64, 64]`: the left operand's columns against the right operand's rows, no batch axis. -/
theorem plain64 : Cert.PlainDot.IsPlain dot_S5000x64_S64x64_S5000x64_1_0_0_1_n_n := ⟨rfl, rfl, rfl, rfl, rfl, rfl⟩

/-- `[5000, 64] · [64, 40]`, likewise. -/
theorem plain40 : Cert.PlainDot.IsPlain dot_S5000x64_S64x40_S5000x40_1_0_0_1_n_n := ⟨rfl, rfl, rfl, rfl, rfl, rfl⟩

/-- The product of a 5000-row block with the 64 × 64 weights into a zero accumulator, the operands rounded to
    bf16 first (no change at the extended reals), at entry `(p, q)`. -/
theorem product64 (x : FVec Ideal S5000x64 .f32) (w : FVec Ideal S64x64 .f32) (p : Fin 5000) (q : Fin 64) :
    matmul (F := Ideal) dot_S5000x64_S64x64_S5000x64_1_0_0_1_n_n none (truncf (F := Ideal) .bf16 x bitsLt_bf16_f32) (truncf (F := Ideal) .bf16 w bitsLt_bf16_f32)
        (constant (F := Ideal) S5000x64 .f32 0x00000000#32) (ix2 p q)
      = ∑ k : Fin 64, x (ix2 p k) * w (ix2 k q) :=
  (Ideal.matmul_constant_zero_apply _ none _ _ (ix2 p q)).trans
    (Cert.PlainDot.sum_contr dot_S5000x64_S64x64_S5000x64_1_0_0_1_n_n plain64 x w p q)

/-- The same with the classifier's 64 × 40 weights. -/
theorem product40 (x : FVec Ideal S5000x64 .f32) (w : FVec Ideal S64x40 .f32) (p : Fin 5000) (q : Fin 40) :
    matmul (F := Ideal) dot_S5000x64_S64x40_S5000x40_1_0_0_1_n_n none (truncf (F := Ideal) .bf16 x bitsLt_bf16_f32) (truncf (F := Ideal) .bf16 w bitsLt_bf16_f32)
        (constant (F := Ideal) S5000x40 .f32 0x00000000#32) (ix2 p q)
      = ∑ k : Fin 64, x (ix2 p k) * w (ix2 k q) :=
  (Ideal.matmul_constant_zero_apply _ none _ _ (ix2 p q)).trans
    (Cert.PlainDot.sum_contr dot_S5000x64_S64x40_S5000x40_1_0_0_1_n_n plain40 x w p q)

/-- The first layer's linear tile at entry `(p, q)`. -/
theorem linear_tile0 (x : Vec Ideal S5000x64 .f32) (w : Vec Ideal S64x64 .f32) (b : Vec Ideal S1x64 .f32) (p : Fin 5000) (q : Fin 64) :
    k0_pay1 (F := Ideal) x w b (ix2 p q) = (∑ k : Fin 64, x (ix2 p k) * w (ix2 k q)) + b (ix2 (0 : Fin 1) q) := by
  unfold k0_pay1
  rw [addf_apply, shapeCast_self, broadcastTo_1b_ab_apply, product64]

/-- The second layer's linear tile at entry `(p, q)`. -/
theorem linear_tile2 (x : Vec Ideal S5000x64 .f32) (w : Vec Ideal S64x64 .f32) (b : Vec Ideal S1x64 .f32) (p : Fin 5000) (q : Fin 64) :
    k2_pay1 (F := Ideal) x w b (ix2 p q) = (∑ k : Fin 64, x (ix2 p k) * w (ix2 k q)) + b (ix2 (0 : Fin 1) q) := by
  unfold k2_pay1
  rw [addf_apply, shapeCast_self, shapeCast_self, broadcastTo_1b_ab_apply, product64]

/-- The classifier's linear tile at entry `(p, q)`. -/
theorem linear_tile4 (x : Vec Ideal S5000x64 .f32) (w : Vec Ideal S64x40 .f32) (b : Vec Ideal S1x40 .f32) (p : Fin 5000) (q : Fin 40) :
    k4_pay1 (F := Ideal) x w b (ix2 p q) = (∑ k : Fin 64, x (ix2 p k) * w (ix2 k q)) + b (ix2 (0 : Fin 1) q) := by
  unfold k4_pay1
  rw [addf_apply, shapeCast_self, shapeCast_self, broadcastTo_1b_ab_apply, product40]

/-- The first activation tile at entry `(p, q)`. -/
theorem activation_tile1 (a : Vec Ideal S5000x64 .f32) (b : Vec Ideal S1x64 .f32) (p : Fin 5000) (q : Fin 64) :
    k1_pay1 (F := Ideal) a b (ix2 p q) = Ideal.tanh (a (ix2 p q) + b (ix2 (0 : Fin 1) q)) := by
  unfold k1_pay1
  show Ideal.tanh (addf (F := Ideal) (φ := .f32) (shapeCast S5000x64 a shapeCasts_S5000x64_S5000x64) (broadcastTo S5000x64 (shapeCast S1x64 b shapeCasts_S1x64_S1x64) broadcasts_S1x64_S5000x64) (ix2 p q)) = _
  rw [addf_apply, shapeCast_self, shapeCast_self, broadcastTo_1b_ab_apply]

/-- The second activation tile at entry `(p, q)`. -/
theorem activation_tile3 (a : Vec Ideal S5000x64 .f32) (b : Vec Ideal S1x64 .f32) (p : Fin 5000) (q : Fin 64) :
    k3_pay1 (F := Ideal) a b (ix2 p q) = Ideal.tanh (a (ix2 p q) + b (ix2 (0 : Fin 1) q)) := by
  unfold k3_pay1
  show Ideal.tanh (addf (F := Ideal) (φ := .f32) (shapeCast S5000x64 a shapeCasts_S5000x64_S5000x64) (broadcastTo S5000x64 (shapeCast S1x64 b shapeCasts_S1x64_S1x64) broadcasts_S1x64_S5000x64) (ix2 p q)) = _
  rw [addf_apply, shapeCast_self, shapeCast_self, broadcastTo_1b_ab_apply]

/-! ## A tile is the restriction of the whole-array function

Tile `n` holds rows `5000 n … 5000 n + 4999` of its row-tiled operand and the whole of every other operand, so
what it computes at `(r, q)` is the whole-array function at `(5000 n + r, q)`.  Each statement takes the tile's
operands as variables with these facts as hypotheses. -/

/-- The first layer's linear tile `n` is rows `5000 n …` of the dense layer. -/
theorem linear_rows0 (x0 : Vec Ideal S5000x64 .f32) (x1 : Vec Ideal S64x64 .f32) (x2 : Vec Ideal S1x64 .f32)
    (A : FVec Ideal S50000x64 .f32) (W : FVec Ideal S64x64 .f32) (B : FVec Ideal S1x64 .f32) (n : Nat)
    (hx : ∀ (r : Fin 5000) (k : Fin 64) (r' : Fin 50000), r'.val = n * 5000 + r.val → x0 (ix2 r k) = A (ix2 r' k))
    (hw : x1 = W) (hb : x2 = B) (y : S5000x64.Idx) (i : S50000x64.Idx)
    (h0 : (i 0).val = n * 5000 + (y 0).val) (h1 : (i 1).val = (y 1).val) :
    k0_pay1 (F := Ideal) x0 x1 x2 y = Cert.Gcn.linear 50000 64 64 A W B i := by
  subst hw hb
  obtain ⟨r, q, rfl⟩ : ∃ (r : Fin 5000) (q : Fin 64), y = ix2 r q := ⟨y 0, y 1, eq_ix2 y⟩
  obtain ⟨p, q', rfl⟩ : ∃ (p : Fin 50000) (q' : Fin 64), i = ix2 p q' := ⟨i 0, i 1, eq_ix2 i⟩
  obtain rfl : q' = q := Fin.ext h1
  rw [linear_tile0, Cert.Gcn.linear_apply]
  exact congrArg (· + x2 (ix2 (0 : Fin 1) q')) (Finset.sum_congr rfl fun k _ => by rw [hx r k p h0])

/-- The second layer's linear tile `n` is rows `5000 n …` of the dense layer. -/
theorem linear_rows2 (x0 : Vec Ideal S5000x64 .f32) (x1 : Vec Ideal S64x64 .f32) (x2 : Vec Ideal S1x64 .f32)
    (A : FVec Ideal S50000x64 .f32) (W : FVec Ideal S64x64 .f32) (B : FVec Ideal S1x64 .f32) (n : Nat)
    (hx : ∀ (r : Fin 5000) (k : Fin 64) (r' : Fin 50000), r'.val = n * 5000 + r.val → x0 (ix2 r k) = A (ix2 r' k))
    (hw : x1 = W) (hb : x2 = B) (y : S5000x64.Idx) (i : S50000x64.Idx)
    (h0 : (i 0).val = n * 5000 + (y 0).val) (h1 : (i 1).val = (y 1).val) :
    k2_pay1 (F := Ideal) x0 x1 x2 y = Cert.Gcn.linear 50000 64 64 A W B i := by
  subst hw hb
  obtain ⟨r, q, rfl⟩ : ∃ (r : Fin 5000) (q : Fin 64), y = ix2 r q := ⟨y 0, y 1, eq_ix2 y⟩
  obtain ⟨p, q', rfl⟩ : ∃ (p : Fin 50000) (q' : Fin 64), i = ix2 p q' := ⟨i 0, i 1, eq_ix2 i⟩
  obtain rfl : q' = q := Fin.ext h1
  rw [linear_tile2, Cert.Gcn.linear_apply]
  exact congrArg (· + x2 (ix2 (0 : Fin 1) q')) (Finset.sum_congr rfl fun k _ => by rw [hx r k p h0])

/-- The classifier's linear tile `n` is rows `5000 n …` of the dense layer. -/
theorem linear_rows4 (x0 : Vec Ideal S5000x64 .f32) (x1 : Vec Ideal S64x40 .f32) (x2 : Vec Ideal S1x40 .f32)
    (A : FVec Ideal S50000x64 .f32) (W : FVec Ideal S64x40 .f32) (B : FVec Ideal S1x40 .f32) (n : Nat)
    (hx : ∀ (r : Fin 5000) (k : Fin 64) (r' : Fin 50000), r'.val = n * 5000 + r.val → x0 (ix2 r k) = A (ix2 r' k))
    (hw : x1 = W) (hb : x2 = B) (y : S5000x40.Idx) (i : S50000x40.Idx)
    (h0 : (i 0).val = n * 5000 + (y 0).val) (h1 : (i 1).val = (y 1).val) :
    k4_pay1 (F := Ideal) x0 x1 x2 y = Cert.Gcn.linear 50000 64 40 A W B i := by
  subst hw hb
  obtain ⟨r, q, rfl⟩ : ∃ (r : Fin 5000) (q : Fin 40), y = ix2 r q := ⟨y 0, y 1, eq_ix2 y⟩
  obtain ⟨p, q', rfl⟩ : ∃ (p : Fin 50000) (q' : Fin 40), i = ix2 p q' := ⟨i 0, i 1, eq_ix2 i⟩
  obtain rfl : q' = q := Fin.ext h1
  rw [linear_tile4, Cert.Gcn.linear_apply]
  exact congrArg (· + x2 (ix2 (0 : Fin 1) q')) (Finset.sum_congr rfl fun k _ => by rw [hx r k p h0])

/-- The first activation tile `n` is rows `5000 n …` of the activation. -/
theorem activation_rows1 (x0 : Vec Ideal S5000x64 .f32) (x1 : Vec Ideal S1x64 .f32)
    (A : FVec Ideal S50000x64 .f32) (B : FVec Ideal S1x64 .f32) (n : Nat)
    (hx : ∀ (r : Fin 5000) (k : Fin 64) (r' : Fin 50000), r'.val = n * 5000 + r.val → x0 (ix2 r k) = A (ix2 r' k))
    (hb : x1 = B) (y : S5000x64.Idx) (i : S50000x64.Idx)
    (h0 : (i 0).val = n * 5000 + (y 0).val) (h1 : (i 1).val = (y 1).val) :
    k1_pay1 (F := Ideal) x0 x1 y = Cert.Gcn.biasTanh 50000 64 A B i := by
  subst hb
  obtain ⟨r, q, rfl⟩ : ∃ (r : Fin 5000) (q : Fin 64), y = ix2 r q := ⟨y 0, y 1, eq_ix2 y⟩
  obtain ⟨p, q', rfl⟩ : ∃ (p : Fin 50000) (q' : Fin 64), i = ix2 p q' := ⟨i 0, i 1, eq_ix2 i⟩
  obtain rfl : q' = q := Fin.ext h1
  rw [activation_tile1, Cert.Gcn.biasTanh_apply, hx r q' p h0]

/-- The second activation tile `n` is rows `5000 n …` of the activation. -/
theorem activation_rows3 (x0 : Vec Ideal S5000x64 .f32) (x1 : Vec Ideal S1x64 .f32)
    (A : FVec Ideal S50000x64 .f32) (B : FVec Ideal S1x64 .f32) (n : Nat)
    (hx : ∀ (r : Fin 5000) (k : Fin 64) (r' : Fin 50000), r'.val = n * 5000 + r.val → x0 (ix2 r k) = A (ix2 r' k))
    (hb : x1 = B) (y : S5000x64.Idx) (i : S50000x64.Idx)
    (h0 : (i 0).val = n * 5000 + (y 0).val) (h1 : (i 1).val = (y 1).val) :
    k3_pay1 (F := Ideal) x0 x1 y = Cert.Gcn.biasTanh 50000 64 A B i := by
  subst hb
  obtain ⟨r, q, rfl⟩ : ∃ (r : Fin 5000) (q : Fin 64), y = ix2 r q := ⟨y 0, y 1, eq_ix2 y⟩
  obtain ⟨p, q', rfl⟩ : ∃ (p : Fin 50000) (q' : Fin 64), i = ix2 p q' := ⟨i 0, i 1, eq_ix2 i⟩
  obtain rfl : q' = q := Fin.ext h1
  rw [activation_tile3, Cert.Gcn.biasTanh_apply, hx r q' p h0]

end Cert.KernelIdeal.Tiles

end
-- ==== Proof.Stage0.lean ====
/-
  The first layer's linear stage: what the row-tiled computation leaves in its result array.

  The grid has ten points; point `t` loads rows `5000 t … 5000 t + 4999` of the features, the whole weight
  matrix and the bias row, and writes back the same rows of the result.  By the tile lemma what it writes is
  those rows of the dense layer of the arrays as the stage finds them, the ten row blocks cover the result,
  so the result array is the dense layer — whatever the arrays hold when the stage is entered.
-/
import proofs.«105149_j38757784879388_1_alg».proof.Proof.Gen.KernelIdeal.Frame
import proofs.«105149_j38757784879388_1_alg».proof.Proof.KernelBodies
import Idealize.ShloMosaic.Lib.Pipeline.Value

noncomputable section

namespace Cert.KernelIdeal.Stage0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each operand's block sits at point `t`: the row-tiled operand and the result at block row `t`, the
    weights and the bias row whole. -/
theorem tiles : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = 0 ∧ win0_2.index t (1 : Fin 2) = 0
  ∧ win0_3.index t (0 : Fin 2) = t.val ∧ win0_3.index t (1 : Fin 2) = 0 :=
  (by decide +kernel : ∀ t : Fin grid0.N, _)

/-- Point `t` writes back rows `5000 t …` of the dense layer of the arrays as the stage finds them. -/
theorem flushed (c : Dev nD) (t : Fin cfg0.N) :
    (dat0 V c).flushed 3 t = ((cfg0.win 3).blk t).view.read (Elt Ideal)
      (Cert.Gcn.linear 50000 64 64 (V c main_arg0) (V c main_arg2) (V c main_v31)) := by
  show (cfg0.win 3).cut (grid0.coords t) ((dat0 V c).after 3 t) = _
  rw [after0_3]
  unfold out0_3
  rw [View.canon_unit_zero zero_offsets]
  simp only [View.ld_unit_zero (S := S5000x64) zero_offsets, View.ld_unit_zero (S := S64x64) zero_offsets, View.ld_unit_zero (S := S1x64) zero_offsets]
  obtain ⟨e0, e1, e2, e3, e4, e5, e6, e7⟩ := tiles t
  funext j
  show k0_pay1 (F := Ideal) (iblk0 V c 0 t) (iblk0 V c 1 t) (iblk0 V c 2 t) j
    = Cert.Gcn.linear 50000 64 64 (V c main_arg0) (V c main_arg2) (V c main_v31) (((cfg0.win 3).blk t).view.emb j)
  refine Cert.KernelIdeal.Tiles.linear_rows0 (iblk0 V c 0 t) (iblk0 V c 1 t) (iblk0 V c 2 t) (V c main_arg0) (V c main_arg2) (V c main_v31) t.val ?_ ?_ ?_ j _ ?_ ?_
  · intro r k r' hr'
    show V c main_arg0 (((cfg0.win 0).blk t).view.emb (ix2 r k)) = V c main_arg0 (ix2 r' k)
    refine congrArg _ (funext fun a => Fin.ext ?_)
    match a with
    | ⟨0, _⟩ => show win0_0.index t (0 : Fin 2) * 5000 + 1 * r.val = r'.val; rw [e0, hr']; omega
    | ⟨1, _⟩ => show win0_0.index t (1 : Fin 2) * 64 + 1 * k.val = k.val; rw [e1]; omega
  · funext y
    show V c main_arg2 (((cfg0.win 1).blk t).view.emb y) = V c main_arg2 y
    refine congrArg _ (funext fun a => Fin.ext ?_)
    match a with
    | ⟨0, _⟩ => show win0_1.index t (0 : Fin 2) * 64 + 1 * (y 0).val = (y 0).val; rw [e2]; omega
    | ⟨1, _⟩ => show win0_1.index t (1 : Fin 2) * 64 + 1 * (y 1).val = (y 1).val; rw [e3]; omega
  · funext y
    show V c main_v31 (((cfg0.win 2).blk t).view.emb y) = V c main_v31 y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega
  · show win0_3.index t (0 : Fin 2) * 5000 + 1 * (j 0).val = t.val * 5000 + (j 0).val; rw [e6]; omega
  · show win0_3.index t (1 : Fin 2) * 64 + 1 * (j 1).val = (j 1).val; rw [e7]; omega

/-- An index of the result is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v32).slice (win0_3.rect t)).set ↔ _
  rw [View.set_slice_whole, Rect.mem_set_unit]
  exact Iff.rfl

/-- Row `r` of the result is written by point `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨e0, e1, e2, e3, e4, e5, e6, e7⟩ := tiles t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6]; show (i 0).val / 5000 * 5000 ≤ (i 0).val ∧ (i 0).val < (i 0).val / 5000 * 5000 + 5000; omega
  | ⟨1, _⟩ => show win0_3.index t (1 : Fin 2) * 64 ≤ (i 1).val ∧ (i 1).val < win0_3.index t (1 : Fin 2) * 64 + 64; rw [e7]; omega

/-- The result array after the stage is the dense layer of the arrays as the stage finds them. -/
theorem result (c : Dev nD) :
    (dat0 V c).arrAt 3 cfg0.N = Cert.Gcn.linear 50000 64 64 (V c main_arg0) (V c main_arg2) (V c main_v31) :=
  (dat0 V c).arrAt_eq_of_cover 3 _ (fun t _ => flushed V c t) cover

end Cert.KernelIdeal.Stage0

end
-- ==== Proof.Stage1.lean ====
/-
  The first activation stage: what the row-tiled computation leaves in its result array.

  The grid has ten points; point `t` loads rows `5000 t … 5000 t + 4999` of the aggregate and the bias row, and
  writes back the same rows of the result.  By the tile lemma what it writes is those rows of
  `tanh (aggregate + bias)` of the arrays as the stage finds them, the ten row blocks cover the result, so the
  result array is that function — whatever the arrays hold when the stage is entered.
-/
import proofs.«105149_j38757784879388_1_alg».proof.Proof.Gen.KernelIdeal.Frame
import proofs.«105149_j38757784879388_1_alg».proof.Proof.KernelBodies
import Idealize.ShloMosaic.Lib.Pipeline.Value

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each operand's block sits at point `t`: the aggregate and the result at block row `t`, the bias row whole. -/
theorem tiles : ∀ t : Fin cfg1.N,
    win1_0.index t (0 : Fin 2) = t.val ∧ win1_0.index t (1 : Fin 2) = 0
  ∧ win1_1.index t (0 : Fin 2) = 0 ∧ win1_1.index t (1 : Fin 2) = 0
  ∧ win1_2.index t (0 : Fin 2) = t.val ∧ win1_2.index t (1 : Fin 2) = 0 :=
  (by decide +kernel : ∀ t : Fin grid1.N, _)

/-- Point `t` writes back rows `5000 t …` of the activation of the arrays as the stage finds them. -/
theorem flushed (c : Dev nD) (t : Fin cfg1.N) :
    (dat1 V c).flushed 2 t = ((cfg1.win 2).blk t).view.read (Elt Ideal)
      (Cert.Gcn.biasTanh 50000 64 (V c main_v45) (V c main_v46)) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨e0, e1, e2, e3, e4, e5⟩ := tiles t
  funext j
  show k1_pay1 (F := Ideal) (iblk1 V c 0 t) (iblk1 V c 1 t) j
    = Cert.Gcn.biasTanh 50000 64 (V c main_v45) (V c main_v46) (((cfg1.win 2).blk t).view.emb j)
  refine Cert.KernelIdeal.Tiles.activation_rows1 (iblk1 V c 0 t) (iblk1 V c 1 t) (V c main_v45) (V c main_v46) t.val ?_ ?_ j _ ?_ ?_
  · intro r k r' hr'
    show V c main_v45 (((cfg1.win 0).blk t).view.emb (ix2 r k)) = V c main_v45 (ix2 r' k)
    refine congrArg _ (funext fun a => Fin.ext ?_)
    match a with
    | ⟨0, _⟩ => show win1_0.index t (0 : Fin 2) * 5000 + 1 * r.val = r'.val; rw [e0, hr']; omega
    | ⟨1, _⟩ => show win1_0.index t (1 : Fin 2) * 64 + 1 * k.val = k.val; rw [e1]; omega
  · funext y
    show V c main_v46 (((cfg1.win 1).blk t).view.emb y) = V c main_v46 y
    refine congrArg _ (funext fun a => Fin.ext ?_)
    match a with
    | ⟨0, _⟩ => show win1_1.index t (0 : Fin 2) * 1 + 1 * (y 0).val = (y 0).val; rw [e2]; omega
    | ⟨1, _⟩ => show win1_1.index t (1 : Fin 2) * 64 + 1 * (y 1).val = (y 1).val; rw [e3]; omega
  · show win1_2.index t (0 : Fin 2) * 5000 + 1 * (j 0).val = t.val * 5000 + (j 0).val; rw [e4]; omega
  · show win1_2.index t (1 : Fin 2) * 64 + 1 * (j 1).val = (j 1).val; rw [e5]; omega

/-- An index of the result is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row `r` of the result is written by point `r / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5⟩ := tiles t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4]; show (i 0).val / 5000 * 5000 ≤ (i 0).val ∧ (i 0).val < (i 0).val / 5000 * 5000 + 5000; omega
  | ⟨1, _⟩ => show win1_2.index t (1 : Fin 2) * 64 ≤ (i 1).val ∧ (i 1).val < win1_2.index t (1 : Fin 2) * 64 + 64; rw [e5]; omega

/-- The result array after the stage is the activation of the arrays as the stage finds them. -/
theorem result (c : Dev nD) :
    (dat1 V c).arrAt 2 cfg1.N = Cert.Gcn.biasTanh 50000 64 (V c main_v45) (V c main_v46) :=
  (dat1 V c).arrAt_eq_of_cover 2 _ (fun t _ => flushed V c t) cover

end Cert.KernelIdeal.Stage1

end
-- ==== Proof.Stage2.lean ====
/-
  The second layer's linear stage: what the row-tiled computation leaves in its result array.

  The grid has ten points; point `t` loads rows `5000 t … 5000 t + 4999` of the first hidden layer, the whole weight
  matrix and the bias row, and writes back the same rows of the result.  By the tile lemma what it writes is
  those rows of the dense layer of the arrays as the stage finds them, the ten row blocks cover the result,
  so the result array is the dense layer — whatever the arrays hold when the stage is entered.
-/
import proofs.«105149_j38757784879388_1_alg».proof.Proof.Gen.KernelIdeal.Frame
import proofs.«105149_j38757784879388_1_alg».proof.Proof.KernelBodies
import Idealize.ShloMosaic.Lib.Pipeline.Value

noncomputable section

namespace Cert.KernelIdeal.Stage2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each operand's block sits at point `t`: the row-tiled operand and the result at block row `t`, the
    weights and the bias row whole. -/
theorem tiles : ∀ t : Fin cfg2.N,
    win2_0.index t (0 : Fin 2) = t.val ∧ win2_0.index t (1 : Fin 2) = 0
  ∧ win2_1.index t (0 : Fin 2) = 0 ∧ win2_1.index t (1 : Fin 2) = 0
  ∧ win2_2.index t (0 : Fin 2) = 0 ∧ win2_2.index t (1 : Fin 2) = 0
  ∧ win2_3.index t (0 : Fin 2) = t.val ∧ win2_3.index t (1 : Fin 2) = 0 :=
  (by decide +kernel : ∀ t : Fin grid2.N, _)

/-- Point `t` writes back rows `5000 t …` of the dense layer of the arrays as the stage finds them. -/
theorem flushed (c : Dev nD) (t : Fin cfg2.N) :
    (dat2 V c).flushed 3 t = ((cfg2.win 3).blk t).view.read (Elt Ideal)
      (Cert.Gcn.linear 50000 64 64 (V c main_v47) (V c main_arg4) (V c main_v49)) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x64) zero_offsets, View.ld_unit_zero (S := S1x64) zero_offsets]
  obtain ⟨e0, e1, e2, e3, e4, e5, e6, e7⟩ := tiles t
  funext j
  show k2_pay1 (F := Ideal) (iblk2 V c 0 t) (iblk2 V c 1 t) (iblk2 V c 2 t) j
    = Cert.Gcn.linear 50000 64 64 (V c main_v47) (V c main_arg4) (V c main_v49) (((cfg2.win 3).blk t).view.emb j)
  refine Cert.KernelIdeal.Tiles.linear_rows2 (iblk2 V c 0 t) (iblk2 V c 1 t) (iblk2 V c 2 t) (V c main_v47) (V c main_arg4) (V c main_v49) t.val ?_ ?_ ?_ j _ ?_ ?_
  · intro r k r' hr'
    show V c main_v47 (((cfg2.win 0).blk t).view.emb (ix2 r k)) = V c main_v47 (ix2 r' k)
    refine congrArg _ (funext fun a => Fin.ext ?_)
    match a with
    | ⟨0, _⟩ => show win2_0.index t (0 : Fin 2) * 5000 + 1 * r.val = r'.val; rw [e0, hr']; omega
    | ⟨1, _⟩ => show win2_0.index t (1 : Fin 2) * 64 + 1 * k.val = k.val; rw [e1]; omega
  · funext y
    show V c main_arg4 (((cfg2.win 1).blk t).view.emb y) = V c main_arg4 y
    refine congrArg _ (funext fun a => Fin.ext ?_)
    match a with
    | ⟨0, _⟩ => show win2_1.index t (0 : Fin 2) * 64 + 1 * (y 0).val = (y 0).val; rw [e2]; omega
    | ⟨1, _⟩ => show win2_1.index t (1 : Fin 2) * 64 + 1 * (y 1).val = (y 1).val; rw [e3]; omega
  · funext y
    show V c main_v49 (((cfg2.win 2).blk t).view.emb y) = V c main_v49 y
    refine congrArg _ (funext fun a => Fin.ext ?_)
    match a with
    | ⟨0, _⟩ => show win2_2.index t (0 : Fin 2) * 1 + 1 * (y 0).val = (y 0).val; rw [e4]; omega
    | ⟨1, _⟩ => show win2_2.index t (1 : Fin 2) * 64 + 1 * (y 1).val = (y 1).val; rw [e5]; omega
  · show win2_3.index t (0 : Fin 2) * 5000 + 1 * (j 0).val = t.val * 5000 + (j 0).val; rw [e6]; omega
  · show win2_3.index t (1 : Fin 2) * 64 + 1 * (j 1).val = (j 1).val; rw [e7]; omega

/-- An index of the result is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v50).slice (win2_3.rect t)).set ↔ _
  rw [View.set_slice_whole, Rect.mem_set_unit]
  exact Iff.rfl

/-- Row `r` of the result is written by point `r / 5000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5, e6, e7⟩ := tiles t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e6]; show (i 0).val / 5000 * 5000 ≤ (i 0).val ∧ (i 0).val < (i 0).val / 5000 * 5000 + 5000; omega
  | ⟨1, _⟩ => show win2_3.index t (1 : Fin 2) * 64 ≤ (i 1).val ∧ (i 1).val < win2_3.index t (1 : Fin 2) * 64 + 64; rw [e7]; omega

/-- The result array after the stage is the dense layer of the arrays as the stage finds them. -/
theorem result (c : Dev nD) :
    (dat2 V c).arrAt 3 cfg2.N = Cert.Gcn.linear 50000 64 64 (V c main_v47) (V c main_arg4) (V c main_v49) :=
  (dat2 V c).arrAt_eq_of_cover 3 _ (fun t _ => flushed V c t) cover

end Cert.KernelIdeal.Stage2

end
-- ==== Proof.Stage3.lean ====
/-
  The second activation stage: what the row-tiled computation leaves in its result array.

  The grid has ten points; point `t` loads rows `5000 t … 5000 t + 4999` of the aggregate and the bias row, and
  writes back the same rows of the result.  By the tile lemma what it writes is those rows of
  `tanh (aggregate + bias)` of the arrays as the stage finds them, the ten row blocks cover the result, so the
  result array is that function — whatever the arrays hold when the stage is entered.
-/
import proofs.«105149_j38757784879388_1_alg».proof.Proof.Gen.KernelIdeal.Frame
import proofs.«105149_j38757784879388_1_alg».proof.Proof.KernelBodies
import Idealize.ShloMosaic.Lib.Pipeline.Value

noncomputable section

namespace Cert.KernelIdeal.Stage3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each operand's block sits at point `t`: the aggregate and the result at block row `t`, the bias row whole. -/
theorem tiles : ∀ t : Fin cfg3.N,
    win3_0.index t (0 : Fin 2) = t.val ∧ win3_0.index t (1 : Fin 2) = 0
  ∧ win3_1.index t (0 : Fin 2) = 0 ∧ win3_1.index t (1 : Fin 2) = 0
  ∧ win3_2.index t (0 : Fin 2) = t.val ∧ win3_2.index t (1 : Fin 2) = 0 :=
  (by decide +kernel : ∀ t : Fin grid3.N, _)

/-- Point `t` writes back rows `5000 t …` of the activation of the arrays as the stage finds them. -/
theorem flushed (c : Dev nD) (t : Fin cfg3.N) :
    (dat3 V c).flushed 2 t = ((cfg3.win 2).blk t).view.read (Elt Ideal)
      (Cert.Gcn.biasTanh 50000 64 (V c main_v63) (V c main_v64)) := by
  show (cfg3.win 2).cut (grid3.coords t) ((dat3 V c).after 2 t) = _
  rw [after3_2]
  unfold out3_2
  rw [View.canon_unit_zero zero_offsets]
  simp only [View.ld_unit_zero (S := S5000x64) zero_offsets, View.ld_unit_zero (S := S1x64) zero_offsets]
  obtain ⟨e0, e1, e2, e3, e4, e5⟩ := tiles t
  funext j
  show k3_pay1 (F := Ideal) (iblk3 V c 0 t) (iblk3 V c 1 t) j
    = Cert.Gcn.biasTanh 50000 64 (V c main_v63) (V c main_v64) (((cfg3.win 2).blk t).view.emb j)
  refine Cert.KernelIdeal.Tiles.activation_rows3 (iblk3 V c 0 t) (iblk3 V c 1 t) (V c main_v63) (V c main_v64) t.val ?_ ?_ j _ ?_ ?_
  · intro r k r' hr'
    show V c main_v63 (((cfg3.win 0).blk t).view.emb (ix2 r k)) = V c main_v63 (ix2 r' k)
    refine congrArg _ (funext fun a => Fin.ext ?_)
    match a with
    | ⟨0, _⟩ => show win3_0.index t (0 : Fin 2) * 5000 + 1 * r.val = r'.val; rw [e0, hr']; omega
    | ⟨1, _⟩ => show win3_0.index t (1 : Fin 2) * 64 + 1 * k.val = k.val; rw [e1]; omega
  · funext y
    show V c main_v64 (((cfg3.win 1).blk t).view.emb y) = V c main_v64 y
    refine congrArg _ (funext fun a => Fin.ext ?_)
    match a with
    | ⟨0, _⟩ => show win3_1.index t (0 : Fin 2) * 1 + 1 * (y 0).val = (y 0).val; rw [e2]; omega
    | ⟨1, _⟩ => show win3_1.index t (1 : Fin 2) * 64 + 1 * (y 1).val = (y 1).val; rw [e3]; omega
  · show win3_2.index t (0 : Fin 2) * 5000 + 1 * (j 0).val = t.val * 5000 + (j 0).val; rw [e4]; omega
  · show win3_2.index t (1 : Fin 2) * 64 + 1 * (j 1).val = (j 1).val; rw [e5]; omega

/-- An index of the result is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v65).slice (win3_2.rect t)).set ↔ _
  rw [View.set_slice_whole, Rect.mem_set_unit]
  exact Iff.rfl

/-- Row `r` of the result is written by point `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0, e1, e2, e3, e4, e5⟩ := tiles t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4]; show (i 0).val / 5000 * 5000 ≤ (i 0).val ∧ (i 0).val < (i 0).val / 5000 * 5000 + 5000; omega
  | ⟨1, _⟩ => show win3_2.index t (1 : Fin 2) * 64 ≤ (i 1).val ∧ (i 1).val < win3_2.index t (1 : Fin 2) * 64 + 64; rw [e5]; omega

/-- The result array after the stage is the activation of the arrays as the stage finds them. -/
theorem result (c : Dev nD) :
    (dat3 V c).arrAt 2 cfg3.N = Cert.Gcn.biasTanh 50000 64 (V c main_v63) (V c main_v64) :=
  (dat3 V c).arrAt_eq_of_cover 2 _ (fun t _ => flushed V c t) cover

end Cert.KernelIdeal.Stage3

end
-- ==== Proof.Stage4.lean ====
/-
  The classifier: what the row-tiled computation leaves in its result array.

  The grid has ten points; point `t` loads rows `5000 t … 5000 t + 4999` of the second hidden layer, the whole 64 × 40 weight
  matrix and the bias row, and writes back the same rows of the result.  By the tile lemma what it writes is
  those rows of the dense layer of the arrays as the stage finds them, the ten row blocks cover the result,
  so the result array is the dense layer — whatever the arrays hold when the stage is entered.
-/
import proofs.«105149_j38757784879388_1_alg».proof.Proof.Gen.KernelIdeal.Frame
import proofs.«105149_j38757784879388_1_alg».proof.Proof.KernelBodies
import Idealize.ShloMosaic.Lib.Pipeline.Value

noncomputable section

namespace Cert.KernelIdeal.Stage4

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each operand's block sits at point `t`: the row-tiled operand and the result at block row `t`, the
    weights and the bias row whole. -/
theorem tiles : ∀ t : Fin cfg4.N,
    win4_0.index t (0 : Fin 2) = t.val ∧ win4_0.index t (1 : Fin 2) = 0
  ∧ win4_1.index t (0 : Fin 2) = 0 ∧ win4_1.index t (1 : Fin 2) = 0
  ∧ win4_2.index t (0 : Fin 2) = 0 ∧ win4_2.index t (1 : Fin 2) = 0
  ∧ win4_3.index t (0 : Fin 2) = t.val ∧ win4_3.index t (1 : Fin 2) = 0 :=
  (by decide +kernel : ∀ t : Fin grid4.N, _)

/-- Point `t` writes back rows `5000 t …` of the dense layer of the arrays as the stage finds them. -/
theorem flushed (c : Dev nD) (t : Fin cfg4.N) :
    (dat4 V c).flushed 3 t = ((cfg4.win 3).blk t).view.read (Elt Ideal)
      (Cert.Gcn.linear 50000 64 40 (V c main_v65) (V c main_arg6) (V c main_v66)) := by
  show (cfg4.win 3).cut (grid4.coords t) ((dat4 V c).after 3 t) = _
  rw [after4_3]
  unfold out4_3
  rw [View.canon_unit_zero zero_offsets]
  simp only [View.ld_unit_zero (S := S5000x64) zero_offsets, View.ld_unit_zero (S := S64x40) zero_offsets, View.ld_unit_zero (S := S1x40) zero_offsets]
  obtain ⟨e0, e1, e2, e3, e4, e5, e6, e7⟩ := tiles t
  funext j
  show k4_pay1 (F := Ideal) (iblk4 V c 0 t) (iblk4 V c 1 t) (iblk4 V c 2 t) j
    = Cert.Gcn.linear 50000 64 40 (V c main_v65) (V c main_arg6) (V c main_v66) (((cfg4.win 3).blk t).view.emb j)
  refine Cert.KernelIdeal.Tiles.linear_rows4 (iblk4 V c 0 t) (iblk4 V c 1 t) (iblk4 V c 2 t) (V c main_v65) (V c main_arg6) (V c main_v66) t.val ?_ ?_ ?_ j _ ?_ ?_
  · intro r k r' hr'
    show V c main_v65 (((cfg4.win 0).blk t).view.emb (ix2 r k)) = V c main_v65 (ix2 r' k)
    refine congrArg _ (funext fun a => Fin.ext ?_)
    match a with
    | ⟨0, _⟩ => show win4_0.index t (0 : Fin 2) * 5000 + 1 * r.val = r'.val; rw [e0, hr']; omega
    | ⟨1, _⟩ => show win4_0.index t (1 : Fin 2) * 64 + 1 * k.val = k.val; rw [e1]; omega
  · funext y
    show V c main_arg6 (((cfg4.win 1).blk t).view.emb y) = V c main_arg6 y
    refine congrArg _ (funext fun a => Fin.ext ?_)
    match a with
    | ⟨0, _⟩ => show win4_1.index t (0 : Fin 2) * 64 + 1 * (y 0).val = (y 0).val; rw [e2]; omega
    | ⟨1, _⟩ => show win4_1.index t (1 : Fin 2) * 40 + 1 * (y 1).val = (y 1).val; rw [e3]; omega
  · funext y
    show V c main_v66 (((cfg4.win 2).blk t).view.emb y) = V c main_v66 y
    refine congrArg _ (funext fun a => Fin.ext ?_)
    match a with
    | ⟨0, _⟩ => show win4_2.index t (0 : Fin 2) * 1 + 1 * (y 0).val = (y 0).val; rw [e4]; omega
    | ⟨1, _⟩ => show win4_2.index t (1 : Fin 2) * 40 + 1 * (y 1).val = (y 1).val; rw [e5]; omega
  · show win4_3.index t (0 : Fin 2) * 5000 + 1 * (j 0).val = t.val * 5000 + (j 0).val; rw [e6]; omega
  · show win4_3.index t (1 : Fin 2) * 40 + 1 * (j 1).val = (j 1).val; rw [e7]; omega

/-- An index of the result is in point `t`'s block iff each coordinate is in the block's range on its axis. -/
theorem mem_blk (t : Fin cfg4.N) (i : S50000x40.Idx) :
    i ∈ ((cfg4.win 3).blk t).view.set ↔ ∀ a : Fin 2, win4_3.index t a * S5000x40.size a ≤ (i a).val ∧ (i a).val < win4_3.index t a * S5000x40.size a + S5000x40.size a := by
  show i ∈ ((View.whole main_v67).slice (win4_3.rect t)).set ↔ _
  rw [View.set_slice_whole, Rect.mem_set_unit]
  exact Iff.rfl

/-- Row `r` of the result is written by point `r / 5000`. -/
theorem cover (i : S50000x40.Idx) : ∃ t : Fin cfg4.N, (cfg4.win 3).flush t = true ∧ i ∈ ((cfg4.win 3).blk t).view.set := by
  have hi0 : (i 0).val < 50000 := (i 0).isLt
  have hi1 : (i 1).val < 40 := (i 1).isLt
  have hN : cfg4.N = 10 := N_4
  let t : Fin cfg4.N := ⟨(i 0).val / 5000, by rw [hN]; omega⟩
  obtain ⟨e0, e1, e2, e3, e4, e5, e6, e7⟩ := tiles t
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; rw [e6]; show (i 0).val / 5000 * 5000 ≤ (i 0).val ∧ (i 0).val < (i 0).val / 5000 * 5000 + 5000; omega
  | ⟨1, _⟩ => show win4_3.index t (1 : Fin 2) * 40 ≤ (i 1).val ∧ (i 1).val < win4_3.index t (1 : Fin 2) * 40 + 40; rw [e7]; omega

/-- The result array after the stage is the dense layer of the arrays as the stage finds them. -/
theorem result (c : Dev nD) :
    (dat4 V c).arrAt 3 cfg4.N = Cert.Gcn.linear 50000 64 40 (V c main_v65) (V c main_arg6) (V c main_v66) :=
  (dat4 V c).arrAt_eq_of_cover 3 _ (fun t _ => flushed V c t) cover

end Cert.KernelIdeal.Stage4

end
-- ==== Proof.KernelValue.lean ====
/-
  The value of the whole program, stage by stage.

  Write `x, e, W₁, b₁, W₂, b₂, W_c, b_c` for the eight arguments.  The program computes, once, the edge lists with
  the self loops appended (`src`, `dst`) and the symmetric normalisation `norm` of every edge; then
      h₁ = tanh (Agg (x · W₁) + b₁),   h₂ = tanh (Agg (h₁ · W₂) + b₂),   out = h₂ · W_c + b_c,
  where `Agg h` gathers the rows of `h` at `src`, scales them by `norm` and scatter-adds them at `dst`.  The three
  products and the two activations are row-tiled stages; everything else is host operations, the very ones the
  reference applies.  So the proof walks the buffers' contents through the program: a host stretch is read
  operation by operation and is, on equal operands, literally the reference's term; a tiled stage's result array is
  the dense layer or the activation of the arrays it finds (the stage modules), which the reference's
  `dot_general` or `tanh` of the same arrays equals (the reference's layer lemmas) — a hidden layer's product is
  computed by the tiles with a bias row of zeros, and `a + 0 = a` on the extended reals.  The reference computes
  `norm` a second time for the second layer; it is the same term of `e`.  No step needs the arguments to be finite.
-/
import proofs.«105149_j38757784879388_1_alg».proof.Proof.KernelRun
import proofs.«105149_j38757784879388_1_alg».proof.Proof.RefLayers
import proofs.«105149_j38757784879388_1_alg».proof.Proof.Stage0
import proofs.«105149_j38757784879388_1_alg».proof.Proof.Stage1
import proofs.«105149_j38757784879388_1_alg».proof.Proof.Stage2
import proofs.«105149_j38757784879388_1_alg».proof.Proof.Stage3
import proofs.«105149_j38757784879388_1_alg».proof.Proof.Stage4
import Idealize.ShloMosaic.Lib.StableHlo.Run
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Cert.ReferenceIdeal.Read

variable (m : (ℓ : Loc nD τ sig) → Buf (Elt Ideal) ℓ) (ρ : Dev nD → PrngReg) (c : Dev nD)

/-! ## Before the first stage: the edge lists, the normalisation, and the arguments -/

set_option maxHeartbeats 4000000 in
/-- The source list with the self loops appended. -/
theorem src_entry : W3 m ρ c (Proc.devRef .tc main_v3) = val_main_v3 (F := Ideal) (m ((c.tc : Thread nD τ).loc main_arg1)) := by
  dsimp only [W3, W2, W1, hostOps0_2, hostOps0_1, hostOps0]
  after_results_simp <;> rfl

set_option maxHeartbeats 4000000 in
/-- The destination list with the self loops appended. -/
theorem dst_entry : W3 m ρ c (Proc.devRef .tc main_v6) = val_main_v6 (F := Ideal) (m ((c.tc : Thread nD τ).loc main_arg1)) := by
  dsimp only [W3, W2, W1, hostOps0_2, hostOps0_1, hostOps0]
  after_results_simp <;> rfl

/-! The normalisation is read in three steps, one per stretch of host operations, each from ANY contents `U` of the
    buffers that holds what the step reads: the degrees' mask and inverse square roots after the first stretch, the
    `where` between them after the second, the two gathers and their product after the third. -/

/-- After the first stretch: which degrees are positive. -/
theorem deg_positive_1 : W1 m ρ c (Proc.devRef .tc main_v12) = val_main_v13 (F := Ideal) (m ((c.tc : Thread nD τ).loc main_arg1)) := by
  dsimp only [W1, hostOps0]
  after_results_simp <;> rfl

/-- After the first stretch: the degrees' inverse square roots. -/
theorem deg_rsqrt_1 : W1 m ρ c (Proc.devRef .tc main_v13) = val_main_v14 (F := Ideal) (m ((c.tc : Thread nD τ).loc main_arg1)) := by
  dsimp only [W1, hostOps0]
  after_results_simp <;> rfl

/-- After the first stretch: the zero the `where` falls back to. -/
theorem where_zero_1 : W1 m ρ c (Proc.devRef .tc main_cst_2) = val_main_cst_2 (F := Ideal) := by
  dsimp only [W1, hostOps0]
  after_results_simp <;> rfl

theorem src_1 : W1 m ρ c (Proc.devRef .tc main_v3) = val_main_v3 (F := Ideal) (m ((c.tc : Thread nD τ).loc main_arg1)) := by
  dsimp only [W1, hostOps0]
  after_results_simp <;> rfl

theorem dst_1 : W1 m ρ c (Proc.devRef .tc main_v6) = val_main_v6 (F := Ideal) (m ((c.tc : Thread nD τ).loc main_arg1)) := by
  dsimp only [W1, hostOps0]
  after_results_simp <;> rfl

/-! The second stretch is a called function (`where`), whose operations move each operand between the type of its
    buffer and the type of the tensor value it holds — the same type, spelt two ways — by a transport along the
    equation between them.  A transport between equal types changes nothing: -/

/-- Contents read back at the value's type are the contents. -/
theorem ofBuf_id {T : BufTy} (x : TRef sig T) (u : x.ref.ty.Contents (Elt Ideal)) (u' : T.Contents (Elt Ideal)) (h : HEq u u') :
    x.ofBuf u = u' :=
  eq_of_heq ((cast_heq _ u).trans h)

/-- A value stored at the buffer's type is the value. -/
theorem toBuf_id {T : BufTy} (x : TRef sig T) (v : T.Contents (Elt Ideal)) (v' : x.ref.ty.Contents (Elt Ideal)) (h : HEq v v') :
    x.toBuf v = v' :=
  eq_of_heq ((cast_heq _ v).trans h)

/-- Stored and read back. -/
theorem ofBuf_toBuf {T : BufTy} (x : TRef sig T) (y : T.Contents (Elt Ideal)) : x.ofBuf (x.toBuf y) = y :=
  ofBuf_id x _ y (cast_heq _ y)

/-- The second stretch: `dinv = deg > 0 ? rsqrt deg : 0`, from any contents holding its three operands. -/
theorem dinv_of (U : Valuation τ sig (Elt Ideal)) (e : (⟨Cert.ReferenceIdeal.S2x800000, .i32⟩ : BufTy).Contents (Elt Ideal))
    (hp : U (Proc.devRef .tc main_v12) = val_main_v13 (F := Ideal) e) (hr : U (Proc.devRef .tc main_v13) = val_main_v14 (F := Ideal) e)
    (hz : U (Proc.devRef .tc main_cst_2) = val_main_cst_2 (F := Ideal)) :
    StableHlo.after hostOps0_1 U (Proc.devRef .tc main_v14) = val_main_v15 (F := Ideal) e := by
  dsimp only [hostOps0_1]
  after_results_simp
  rw [hp, hr, hz, ofBuf_toBuf, ofBuf_toBuf,
    ofBuf_id (TRef.of (sig := sig) (T := ⟨S50000, .i1⟩) main_v12) _ (val_main_v13 (F := Ideal) e) HEq.rfl,
    ofBuf_id (TRef.of (sig := sig) (T := ⟨S50000, .f32⟩) main_v13) _ (val_main_v14 (F := Ideal) e) HEq.rfl,
    ofBuf_id (TRef.of (sig := sig) (T := ⟨S_, .f32⟩) main_cst_2) _ (val_main_cst_2 (F := Ideal)) HEq.rfl]
  exact toBuf_id _ _ _ HEq.rfl

/-- The second stretch writes neither edge list. -/
theorem src_kept_2 (U : Valuation τ sig (Elt Ideal)) : StableHlo.after hostOps0_1 U (Proc.devRef .tc main_v3) = U (Proc.devRef .tc main_v3) := by
  dsimp only [hostOps0_1]
  after_results_simp
theorem dst_kept_2 (U : Valuation τ sig (Elt Ideal)) : StableHlo.after hostOps0_1 U (Proc.devRef .tc main_v6) = U (Proc.devRef .tc main_v6) := by
  dsimp only [hostOps0_1]
  after_results_simp

/-- The third stretch: `norm = dinv[src] · dinv[dst]`, from any contents holding the edge lists and `dinv`. -/
theorem norm_of (U : Valuation τ sig (Elt Ideal)) (e : (⟨Cert.ReferenceIdeal.S2x800000, .i32⟩ : BufTy).Contents (Elt Ideal))
    (hs : U (Proc.devRef .tc main_v3) = val_main_v3 (F := Ideal) e) (hd : U (Proc.devRef .tc main_v6) = val_main_v6 (F := Ideal) e)
    (hi : U (Proc.devRef .tc main_v14) = val_main_v15 (F := Ideal) e) :
    StableHlo.after hostOps0_2 U (Proc.devRef .tc main_v29) = val_main_v30 (F := Ideal) e := by
  dsimp only [hostOps0_2]
  after_results_simp
  rw [hs, hd, hi]
  rfl

/-- The normalisation of every edge: `dinv[src] · dinv[dst]` with `dinv = deg > 0 ? rsqrt deg : 0`. -/
theorem norm_entry : W3 m ρ c (Proc.devRef .tc main_v29) = val_main_v30 (F := Ideal) (m ((c.tc : Thread nD τ).loc main_arg1)) :=
  norm_of (W2 m ρ c) _ ((src_kept_2 (W1 m ρ c)).trans (src_1 m ρ c)) ((dst_kept_2 (W1 m ρ c)).trans (dst_1 m ρ c))
    (dinv_of (W1 m ρ c) _ (deg_positive_1 m ρ c) (deg_rsqrt_1 m ρ c) (where_zero_1 m ρ c))

theorem x_entry : V3 m ρ c main_arg0 = (m ((c.tc : Thread nD τ).loc main_arg0)) := by
  dsimp only [V3, W3, W2, W1, hostOps0_2, hostOps0_1, hostOps0]
  after_results_simp <;> rfl
theorem W1_entry : V3 m ρ c main_arg2 = (m ((c.tc : Thread nD τ).loc main_arg2)) := by
  dsimp only [V3, W3, W2, W1, hostOps0_2, hostOps0_1, hostOps0]
  after_results_simp <;> rfl
theorem b1_entry : W3 m ρ c (Proc.devRef .tc main_arg3) = (m ((c.tc : Thread nD τ).loc main_arg3)) := by
  dsimp only [W3, W2, W1, hostOps0_2, hostOps0_1, hostOps0]
  after_results_simp <;> rfl
theorem W2_entry : W3 m ρ c (Proc.devRef .tc main_arg4) = (m ((c.tc : Thread nD τ).loc main_arg4)) := by
  dsimp only [W3, W2, W1, hostOps0_2, hostOps0_1, hostOps0]
  after_results_simp <;> rfl
theorem b2_entry : W3 m ρ c (Proc.devRef .tc main_arg5) = (m ((c.tc : Thread nD τ).loc main_arg5)) := by
  dsimp only [W3, W2, W1, hostOps0_2, hostOps0_1, hostOps0]
  after_results_simp <;> rfl
theorem Wc_entry : W3 m ρ c (Proc.devRef .tc main_arg6) = (m ((c.tc : Thread nD τ).loc main_arg6)) := by
  dsimp only [W3, W2, W1, hostOps0_2, hostOps0_1, hostOps0]
  after_results_simp <;> rfl
theorem bc_entry : W3 m ρ c (Proc.devRef .tc main_arg7) = (m ((c.tc : Thread nD τ).loc main_arg7)) := by
  dsimp only [W3, W2, W1, hostOps0_2, hostOps0_1, hostOps0]
  after_results_simp <;> rfl

/-- A `[64]` array of zeros re-laid as a `[1, 64]` row is zero at every entry. -/
theorem zero_row_apply (q : Fin 64) :
    shapeCast S1x64 (broadcastInDim S64 ![] bcast_S_S64 (constant (F := Ideal) S_ .f32 0x00000000#32)) shapeCasts_S64_S1x64 (ix2 (0 : Fin 1) q) = (0 : EReal) := by
  rw [shapeCast_a_1a_apply]
  exact Ideal.ofBits_zero_f32

/-- The first layer's tiles receive a bias row of zeros. -/
theorem zero_row_entry0 (q : Fin 64) : (V3 m ρ c main_v31 : S1x64.Idx → EReal) (ix2 (0 : Fin 1) q) = (0 : EReal) := by
  have h : V3 m ρ c main_v31 = shapeCast S1x64 (broadcastInDim S64 ![] bcast_S_S64 (constant (F := Ideal) S_ .f32 0x00000000#32)) shapeCasts_S64_S1x64 := by
    dsimp only [V3, W3, W2, W1, hostOps0_2, hostOps0_1, hostOps0]
    after_results_simp <;> rfl
  rw [h]
  exact zero_row_apply q

/-! ## The first layer -/

/-- The first product: `x · W₁`. -/
theorem product1 : W4 m ρ c (Proc.devRef .tc main_v32) = val_main_v7 (F := Ideal) (m ((c.tc : Thread nD τ).loc main_arg0)) (m ((c.tc : Thread nD τ).loc main_arg2)) := by
  refine (W4_arr m ρ c 3).trans ?_
  rw [Cert.KernelIdeal.Stage0.result (V3 m ρ) c, x_entry, W1_entry]
  exact Cert.ReferenceIdeal.Layers.hidden_product _ _ _ (zero_row_entry0 m ρ c)

set_option maxHeartbeats 4000000 in
/-- The first aggregation: the host operations between the first two stages are the reference's. -/
theorem aggregate1 : V5 m ρ c main_v45 = val_main_v43 (F := Ideal) (m ((c.tc : Thread nD τ).loc main_arg0)) (m ((c.tc : Thread nD τ).loc main_arg1)) (m ((c.tc : Thread nD τ).loc main_arg2)) := by
  dsimp only [V5, W5, hostOps1]
  after_results_simp
  rw [product1 m ρ c, W4_of_ne m ρ c main_v3 (by decide), W4_of_ne m ρ c main_v6 (by decide), W4_of_ne m ρ c main_v29 (by decide),
    src_entry, dst_entry, norm_entry]
  rfl

/-- The first bias, re-laid as a row, agrees with the bias entry by entry. -/
theorem bias_row1 (q : Fin 64) : (V5 m ρ c main_v46 : S1x64.Idx → EReal) (ix2 (0 : Fin 1) q) = (m ((c.tc : Thread nD τ).loc main_arg3)) (ix1 q) := by
  have h : V5 m ρ c main_v46 = shapeCast S1x64 (m ((c.tc : Thread nD τ).loc main_arg3)) shapeCasts_S64_S1x64 := by
    dsimp only [V5, W5, hostOps1]
    after_results_simp
    rw [W4_of_ne m ρ c main_arg3 (by decide), b1_entry]
    rfl
  rw [h]
  exact shapeCast_a_1a_apply _ _ 0 q

/-- The first hidden layer: `tanh (Agg (x · W₁) + b₁)`. -/
theorem hidden1 : W6 m ρ c (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ?_
  rw [Cert.KernelIdeal.Stage1.result (V5 m ρ) c, aggregate1]
  exact Cert.ReferenceIdeal.Layers.hidden_activation _ (m ((c.tc : Thread nD τ).loc main_arg3)) _ (bias_row1 m ρ c)

/-! ## The second layer -/

theorem hidden1_entry : V7 m ρ c main_v47 = val_main_v47 (F := Ideal) (m ((c.tc : Thread nD τ).loc main_arg0)) (m ((c.tc : Thread nD τ).loc main_arg1)) (m ((c.tc : Thread nD τ).loc main_arg2)) (m ((c.tc : Thread nD τ).loc main_arg3)) := by
  dsimp only [V7, W7, hostOps2]
  after_results_simp
  exact hidden1 m ρ c

theorem W2_entry2 : V7 m ρ c main_arg4 = (m ((c.tc : Thread nD τ).loc main_arg4)) := by
  dsimp only [V7, W7, hostOps2]
  after_results_simp
  rw [W6_of_ne m ρ c main_arg4 (by decide)]
  dsimp only [W5, hostOps1]
  after_results_simp
  rw [W4_of_ne m ρ c main_arg4 (by decide)]
  exact W2_entry m ρ c

/-- The second layer's tiles receive a bias row of zeros. -/
theorem zero_row_entry2 (q : Fin 64) : (V7 m ρ c main_v49 : S1x64.Idx → EReal) (ix2 (0 : Fin 1) q) = (0 : EReal) := by
  have h : V7 m ρ c main_v49 = shapeCast S1x64 (broadcastInDim S64 ![] bcast_S_S64 (constant (F := Ideal) S_ .f32 0x00000000#32)) shapeCasts_S64_S1x64 := by
    dsimp only [V7, W7, hostOps2]
    after_results_simp <;> rfl
  rw [h]
  exact zero_row_apply q

/-- The second product: `h₁ · W₂`. -/
theorem product2 : W8 m ρ c (Proc.devRef .tc main_v50) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W8_arr m ρ c 3).trans ?_
  rw [Cert.KernelIdeal.Stage2.result (V7 m ρ) c, hidden1_entry, W2_entry2]
  exact Cert.ReferenceIdeal.Layers.hidden_product _ _ _ (zero_row_entry2 m ρ c)

/-- A buffer that neither the first two stages nor the host operations between them write is, after the second
    product, what it was before the first. -/
theorem kept_to_8 (b : Ref sig .tc) (h0 : ∀ w, Pipeline.arrRef spec0 w ≠ b) (h1 : ∀ w, Pipeline.arrRef spec1 w ≠ b) (h2 : ∀ w, Pipeline.arrRef spec2 w ≠ b)
    (hh1 : StableHlo.after hostOps1 (W4 m ρ c) (Proc.devRef .tc b) = W4 m ρ c (Proc.devRef .tc b))
    (hh2 : StableHlo.after hostOps2 (W6 m ρ c) (Proc.devRef .tc b) = W6 m ρ c (Proc.devRef .tc b)) :
    W8 m ρ c (Proc.devRef .tc b) = W3 m ρ c (Proc.devRef .tc b) :=
  (W8_of_ne m ρ c b h2).trans (hh2.trans ((W6_of_ne m ρ c b h1).trans (hh1.trans (W4_of_ne m ρ c b h0))))

theorem src_8 : W8 m ρ c (Proc.devRef .tc main_v3) = val_main_v3 (F := Ideal) (m ((c.tc : Thread nD τ).loc main_arg1)) :=
  (kept_to_8 m ρ c main_v3 (by decide) (by decide) (by decide) (by dsimp only [hostOps1]; after_results_simp) (by dsimp only [hostOps2]; after_results_simp)).trans (src_entry m ρ c)
theorem dst_8 : W8 m ρ c (Proc.devRef .tc main_v6) = val_main_v6 (F := Ideal) (m ((c.tc : Thread nD τ).loc main_arg1)) :=
  (kept_to_8 m ρ c main_v6 (by decide) (by decide) (by decide) (by dsimp only [hostOps1]; after_results_simp) (by dsimp only [hostOps2]; after_results_simp)).trans (dst_entry m ρ c)
theorem norm_8 : W8 m ρ c (Proc.devRef .tc main_v29) = val_main_v30 (F := Ideal) (m ((c.tc : Thread nD τ).loc main_arg1)) :=
  (kept_to_8 m ρ c main_v29 (by decide) (by decide) (by decide) (by dsimp only [hostOps1]; after_results_simp) (by dsimp only [hostOps2]; after_results_simp)).trans (norm_entry m ρ c)
theorem b2_8 : W8 m ρ c (Proc.devRef .tc main_arg5) = (m ((c.tc : Thread nD τ).loc main_arg5)) :=
  (kept_to_8 m ρ c main_arg5 (by decide) (by decide) (by decide) (by dsimp only [hostOps1]; after_results_simp) (by dsimp only [hostOps2]; after_results_simp)).trans (b2_entry m ρ c)
theorem Wc_8 : W8 m ρ c (Proc.devRef .tc main_arg6) = (m ((c.tc : Thread nD τ).loc main_arg6)) :=
  (kept_to_8 m ρ c main_arg6 (by decide) (by decide) (by decide) (by dsimp only [hostOps1]; after_results_simp) (by dsimp only [hostOps2]; after_results_simp)).trans (Wc_entry m ρ c)
theorem bc_8 : W8 m ρ c (Proc.devRef .tc main_arg7) = (m ((c.tc : Thread nD τ).loc main_arg7)) :=
  (kept_to_8 m ρ c main_arg7 (by decide) (by decide) (by decide) (by dsimp only [hostOps1]; after_results_simp) (by dsimp only [hostOps2]; after_results_simp)).trans (bc_entry m ρ c)

/-- The reference computes the normalisation again for the second layer: the same term of the edge list. -/
theorem norm_again (e : (⟨Cert.ReferenceIdeal.S2x800000, .i32⟩ : BufTy).Contents (Elt Ideal)) :
    val_main_v71 (F := Ideal) e = val_main_v30 (F := Ideal) e := rfl

set_option maxHeartbeats 4000000 in
/-- The second aggregation: the host operations between the third and fourth stages are the reference's. -/
theorem aggregate2 : V9 m ρ c main_v63 = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [V9, W9, hostOps3]
  after_results_simp
  rw [product2 m ρ c, src_8, dst_8, norm_8, ← norm_again]
  rfl

/-- The second bias, re-laid as a row, agrees with the bias entry by entry. -/
theorem bias_row2 (q : Fin 64) : (V9 m ρ c main_v64 : S1x64.Idx → EReal) (ix2 (0 : Fin 1) q) = (m ((c.tc : Thread nD τ).loc main_arg5)) (ix1 q) := by
  have h : V9 m ρ c main_v64 = shapeCast S1x64 (m ((c.tc : Thread nD τ).loc main_arg5)) shapeCasts_S64_S1x64 := by
    dsimp only [V9, W9, hostOps3]
    after_results_simp
    rw [b2_8]
    rfl
  rw [h]
  exact shapeCast_a_1a_apply _ _ 0 q

/-- The second hidden layer: `tanh (Agg (h₁ · W₂) + b₂)` — the program's second result. -/
theorem hidden2 : W10 m ρ c (Proc.devRef .tc main_v65) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W10_arr m ρ c 2).trans ?_
  rw [Cert.KernelIdeal.Stage3.result (V9 m ρ) c, aggregate2]
  exact Cert.ReferenceIdeal.Layers.hidden_activation _ (m ((c.tc : Thread nD τ).loc main_arg5)) _ (bias_row2 m ρ c)

/-! ## The classifier -/

theorem hidden2_entry : V11 m ρ c main_v65 = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [V11, W11, hostOps4]
  after_results_simp
  exact hidden2 m ρ c

theorem Wc_entry4 : V11 m ρ c main_arg6 = (m ((c.tc : Thread nD τ).loc main_arg6)) := by
  dsimp only [V11, W11, hostOps4]
  after_results_simp
  rw [W10_of_ne m ρ c main_arg6 (by decide)]
  dsimp only [W9, hostOps3]
  after_results_simp
  exact Wc_8 m ρ c

/-- The classifier's bias, re-laid as a row, agrees with the bias entry by entry. -/
theorem bias_row4 (q : Fin 40) : (V11 m ρ c main_v66 : S1x40.Idx → EReal) (ix2 (0 : Fin 1) q) = (m ((c.tc : Thread nD τ).loc main_arg7)) (ix1 q) := by
  have h : V11 m ρ c main_v66 = shapeCast S1x40 (m ((c.tc : Thread nD τ).loc main_arg7)) shapeCasts_S40_S1x40 := by
    dsimp only [V11, W11, hostOps4]
    after_results_simp
    rw [W10_of_ne m ρ c main_arg7 (by decide)]
    dsimp only [W9, hostOps3]
    after_results_simp
    rw [bc_8]
    rfl
  rw [h]
  exact shapeCast_a_1a_apply _ _ 0 q

/-- The classifier's output: `h₂ · W_c + b_c` — the program's first result. -/
theorem output : W12 m ρ c (Proc.devRef .tc main_v67)
    = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 3).trans ?_
  rw [Cert.KernelIdeal.Stage4.result (V11 m ρ) c, hidden2_entry, Wc_entry4]
  exact Cert.ReferenceIdeal.Layers.classifier _ _ (m ((c.tc : Thread nD τ).loc main_arg7)) _ (bias_row4 m ρ c)

/-- The classifier only reads the second hidden layer: it is still there at the end. -/
theorem hidden2_final : W12 m ρ c (Proc.devRef .tc main_v65)
    = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W12_arr m ρ c 0).trans (((dat4 (V11 m ρ) c).arrAt_in 0 rfl _).trans ((A_eq4 (V11 m ρ) c 0).trans (hidden2_entry m ρ c)))

/-! ## The run, read -/

/-- Every weakly fair execution of the program terminates, nothing faulting, with its two results at the
    reference's stage functions of the arguments and the arguments as launched. -/
theorem run : θ_run defs (onTc (τ := τ) (main (F := Ideal))) ⟨m, fun _ => 0, ρ⟩ (fun r => ∀ c : Dev nD,
      r.2.mem ((c.tc : Thread nD τ).loc main_v67)
        = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v65)
        = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output m ρ c), (h c).2.1.trans (hidden2_final m ρ c), (h c).2.2⟩)
    (Cert.KernelIdeal.Named.run m ρ)

end Cert.KernelIdeal.Whole

end
-- ==== Proof.lean ====
/-
  A two-layer graph-convolution network with a linear classifier, row-tiled, against its array-at-once reference.

  Both programs compute, from node features `x`, an edge list `e` and the weights and biases of three dense maps,
      h₁ = tanh (Agg (x · W₁) + b₁),   h₂ = tanh (Agg (h₁ · W₂) + b₂),   out = h₂ · W_c + b_c,
  and return `(out, h₂)`, where `Agg h` gathers the rows of `h` at the edges' sources, scales each by the symmetric
  normalisation `dinv[src] · dinv[dst]` and scatter-adds them at the edges' destinations.  The tiled program does the
  three products and the two activations 5000 rows at a time (ten grid points each), gives the hidden layers' products
  a bias row of zeros, and computes the normalisation once; the reference computes each product with one
  `dot_general`, each activation with one `tanh`, and the normalisation once per layer.  The gathers, the scatter-adds
  and the index arithmetic around them are the same host operations in both.

  At the extended reals a matrix product is the sum over the contraction index of the products however its rows are
  tiled, rounding the operands to bf16 changes nothing, and `a + 0 = a` for every `a`; so each tiled stage's result
  array is the reference's operation on the same arrays, and the two programs' results are one function of the
  arguments (`Cert.KernelIdeal.Whole.run` beside the reference's own run).  The equality needs no finiteness: no
  distributive or cancellation law is used.  The three programs' frames are their runs with the results dropped,
  and the idealised program is the word-level program's own text read at the extended reals (nothing was rewritten).
-/
import proofs.«105149_j38757784879388_1_alg».proof.Defs
import proofs.«105149_j38757784879388_1_alg».proof.Proof.Gen.Kernel
import proofs.«105149_j38757784879388_1_alg».proof.Proof.Gen.Kernel.Skeleton
import proofs.«105149_j38757784879388_1_alg».proof.Proof.Gen.Kernel.Launch
import proofs.«105149_j38757784879388_1_alg».proof.Proof.Gen.Kernel.Points
import proofs.«105149_j38757784879388_1_alg».proof.Proof.Gen.Kernel.Frame
import proofs.«105149_j38757784879388_1_alg».proof.Proof.Gen.KernelIdeal
import proofs.«105149_j38757784879388_1_alg».proof.Proof.Gen.KernelIdeal.Skeleton
import proofs.«105149_j38757784879388_1_alg».proof.Proof.Gen.KernelIdeal.Launch
import proofs.«105149_j38757784879388_1_alg».proof.Proof.Gen.KernelIdeal.Points
import proofs.«105149_j38757784879388_1_alg».proof.Proof.Gen.KernelIdeal.Frame
import proofs.«105149_j38757784879388_1_alg».proof.Proof.Gen.ReferenceIdeal
import proofs.«105149_j38757784879388_1_alg».proof.Proof.Gen.Pre_finite_inputs
import proofs.«105149_j38757784879388_1_alg».proof.Proof.KernelValue
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.Gen.frame m ρ

/-- So does the program read at the extended reals. -/
theorem frame_ideal : Cert.frame_KernelIdeal := fun m ρ _ => Cert.KernelIdeal.Gen.frame m ρ

/-- The reference is host operations only: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- From memories that agree on the arguments the two programs end with equal results: both results are the
    reference's stage functions of the arguments, the tiled program's by `Cert.KernelIdeal.Whole.run`, the
    reference's by its own run. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v92_eq, a0, a1, a2, a3, a4, a5, a6, a7]
  · obtain ⟨a0, a1, a2, a3, a4, a5, a6, a7⟩ := hagree c
    rw [Cert.ReferenceIdeal.Read.val_main_v88_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
